-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S128x256 .f32) (main_arg2 : IVec S800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S50000x128 : Shape := ⟨2, ![50000, 128]⟩
abbrev S128x256 : Shape := ⟨2, ![128, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 26
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S50000x1, .f32⟩
  | .hbm, ⟨24, _⟩ => ⟨S128x256, .bf16⟩
  | .hbm, ⟨25, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .bf16⟩
  | .local _ .vmem, ⟨7, _⟩ => ⟨S5000x256, .f32⟩
  | .local _ .vmem, ⟨8, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KernelBlock.lean ====
/-
  One block of the kernel's output at an entry. At a grid point the body holds 5000 consecutive nodes: their
  features `ft`, the sums of their in-neighbours' features `ms`, their in-neighbour counts as a column `d`, and the
  whole weight matrix `w`. What it stores at row `p`, column `q` of the block is

      max (∑ k, ((ft p k + ms p k / max (d p) 1) · ½) · w k q) 0,

  read off the body's operations one at a time: the casts to the same shape do nothing, the column of clamped counts
  spread over 128 channels reads row `p`'s count whatever the channel, a change of float format is the identity on
  the extended reals, and the matrix unit's product into a zero accumulator is the plain sum over the 128 channels.
-/
import proofs.«139834_j46402826666668_2_alg».proof.Proof.Gen.KernelIdeal.Skeleton
import proofs.«139834_j46402826666668_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The block product's dimension record: 5000 × 128 times 128 × 256, contracted over the 128 channels. -/
abbrev blockDot : DotDims S5000x128 S128x256 S5000x256 := dot_S5000x128_S128x256_S5000x256_1_0_0_1_n_n

/-! The operand positions of the block product at output entry `j` and contraction position `c`: the left operand is
    read at row `j 0`, channel `c`; the right one at channel `c`, column `j 1`. -/

theorem lhs_row (j : S5000x256.Idx) (c : blockDot.contr.Idx) : (blockDot.lhsIdx j c 0).val = (j 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

theorem lhs_chan (j : S5000x256.Idx) (c : blockDot.contr.Idx) : (blockDot.lhsIdx j c 1).val = (c ⟨0, by decide⟩).val :=
  blockDot.lhsIdx_val_of_single rfl j c

theorem rhs_chan (j : S5000x256.Idx) (c : blockDot.contr.Idx) : (blockDot.rhsIdx j c 0).val = (c ⟨0, by decide⟩).val :=
  blockDot.rhsIdx_val_of_single rfl j c

theorem rhs_col (j : S5000x256.Idx) (c : blockDot.contr.Idx) : (blockDot.rhsIdx j c 1).val = (j 1).val := by
  unfold DotDims.rhsIdx
  rw [dif_neg (show ¬(1 : Fin S128x256.rank) ∈ blockDot.rhsBatch by decide),
    dif_pos (show (1 : Fin S128x256.rank) ∈ blockDot.rhsNonContracting by decide)]
  rfl

/-- The matrix unit's product of a 5000 × 128 block with the 128 × 256 weights into a zero accumulator, at entry
    `(p, q)`, is the sum over the 128 channels of the products on the extended reals. -/
theorem blockDot_apply (l : FVec Ideal S5000x128 .bf16) (r : FVec Ideal S128x256 .bf16) (p : Fin 5000) (q : Fin 256) :
    matmul (F := Ideal) blockDot none l r (constant (F := Ideal) S5000x256 .f32 0x00000000#32) (ix2 p q)
      = ∑ k : Fin 128, l (ix2 p k) * r (ix2 k q) := by
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx (ix2 p q) ((ValueIdx.contrEquiv1 blockDot 128 rfl rfl).symm k) = ix2 p k :=
    funext fun a => Fin.ext (by
      match a with
      | ⟨0, _⟩ => exact lhs_row _ _
      | ⟨1, _⟩ => exact (lhs_chan _ _).trans hk)
  have er : blockDot.rhsIdx (ix2 p q) ((ValueIdx.contrEquiv1 blockDot 128 rfl rfl).symm k) = ix2 k q :=
    funext fun a => Fin.ext (by
      match a with
      | ⟨0, _⟩ => exact (rhs_chan _ _).trans hk
      | ⟨1, _⟩ => exact rhs_col _ _)
  rw [el, er]

/-- What the body stores at entry `(p, q)` of its block, from the blocks it loaded. -/
theorem stored_apply (d : FVec Ideal S5000x1 .f32) (ms ft : FVec Ideal S5000x128 .f32) (w : FVec Ideal S128x256 .bf16)
    (p : Fin 5000) (q : Fin 256) :
    k0_pay1 (F := Ideal) d ms ft w (ix2 p q)
      = max (∑ k : Fin 128,
          ((ft (ix2 p k) + Ideal.div (ms (ix2 p k)) (max (d (ix2 p (0 : Fin 1))) (Ideal.ofBits .f32 0x3F800000#32)))
            * Ideal.ofBits .f32 0x3F000000#32) * w (ix2 k q))
        (Ideal.ofBits .f32 0x00000000#32) := by
  unfold k0_pay1
  refine (maximumf_apply _ _ _).trans (congrArg₂ max ?_ rfl)
  refine (blockDot_apply _ _ p q).trans (Finset.sum_congr rfl fun k _ => ?_)
  refine congrArg₂ (· * ·) ?_ (congrFun (shapeCast_self w _) _)
  refine (truncf_apply (φ := .f32) (ψ := .bf16) _ _ (ix2 p k)).trans ((mulf_apply _ _ _).trans (congrArg₂ (· * ·) ?_ rfl))
  refine (addf_apply _ _ _).trans (congrArg (ft (ix2 p k) + ·) ?_)
  refine (divf_apply _ _ _).trans (congrArg₂ Ideal.div (congrFun (shapeCast_self ms _) _) ?_)
  refine (Cert.LibKeepdims.broadcastTo_a1_ab_apply _ _ p k).trans ?_
  exact (maximumf_apply _ _ _).trans (congrArg₂ max (congrFun (shapeCast_self d _) _) rfl)

end Cert.KernelIdeal.Block

end
-- ==== Proof.KernelTiles.lean ====
/-
  The grid's ten points and their blocks. Point `t` holds nodes `5000·t … 5000·t + 4999`: its feature,
  neighbour-sum and count blocks are those rows of the arrays the region finds, the weight block is the whole weight
  matrix at every point, and the block it writes back is those rows of the output array. An entry of a block sits in
  its array at block index times block size plus the coordinate inside the block. The reads are stated first for an
  arbitrary array, so that nothing about the array's contents is ever looked at, and then said of the arrays the
  region finds.
-/
import proofs.«139834_j46402826666668_2_alg».proof.Proof.Gen.KernelIdeal.Value
import Idealize.ShloMosaic.Lib.Pipeline.Value
import Idealize.ShloMosaic.Lib.ValueIdx
import Idealize.ShloMosaic.Lib.Tactic

noncomputable section

open scoped BigOperators

namespace Cert.KernelIdeal.Tiles

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`: the row windows at block row `t`, the weights always at the
    origin (decided over the ten points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## A block of an arbitrary array -/

/-- Entry `(p, k)` of the first row window's block at point `t` is the array's entry `(5000·t + p, k)`. -/
theorem rows0_read (A : S50000x128.Idx → EReal) (t : Fin cfg0.N) (p : Fin 5000) (k : Fin 128) (r : Fin 50000)
    (hr : r.val = t.val * 5000 + p.val) :
    (((cfg0.win 0).blk t).view.read (Elt Ideal) A : Vec Ideal S5000x128 .f32) (ix2 p k) = A (ix2 r k) := by
  obtain ⟨e0, e1, -⟩ := block_index t
  rw [View.read_apply]
  show A (((cfg0.win 0).blk t).view.emb (ix2 p k)) = A (ix2 r k)
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the second row window. -/
theorem rows1_read (A : S50000x128.Idx → EReal) (t : Fin cfg0.N) (p : Fin 5000) (k : Fin 128) (r : Fin 50000)
    (hr : r.val = t.val * 5000 + p.val) :
    (((cfg0.win 1).blk t).view.read (Elt Ideal) A : Vec Ideal S5000x128 .f32) (ix2 p k) = A (ix2 r k) := by
  obtain ⟨-, -, e0, e1, -⟩ := block_index t
  rw [View.read_apply]
  show A (((cfg0.win 1).blk t).view.emb (ix2 p k)) = A (ix2 r k)
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Entry `p` of the column window's block at point `t` is the column's entry `5000·t + p`. -/
theorem col_read (A : S50000x1.Idx → EReal) (t : Fin cfg0.N) (p : Fin 5000) (r : Fin 50000)
    (hr : r.val = t.val * 5000 + p.val) :
    (((cfg0.win 2).blk t).view.read (Elt Ideal) A : Vec Ideal S5000x1 .f32) (ix2 p (0 : Fin 1)) = A (ix2 r (0 : Fin 1)) := by
  obtain ⟨-, -, -, -, e0, e1, -⟩ := block_index t
  rw [View.read_apply]
  show A (((cfg0.win 2).blk t).view.emb (ix2 p (0 : Fin 1))) = A (ix2 r (0 : Fin 1))
  refine congrArg A (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The whole-matrix window's block at any point is the matrix. -/
theorem whole_read (A : S128x256.Idx → EReal) (t : Fin cfg0.N) (k : Fin 128) (q : Fin 256) :
    (((cfg0.win 3).blk t).view.read (Elt Ideal) A : Vec Ideal S128x256 .bf16) (ix2 k q) = A (ix2 k q) := by
  obtain ⟨-, -, -, -, -, -, e0, e1, -⟩ := block_index t
  rw [View.read_apply]
  show A (((cfg0.win 3).blk t).view.emb (ix2 k q)) = A (ix2 k q)
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- A block `X` whose entry `(p, q)` is `G` at `(5000·t + p, q)` is block `t` of `G` as the output window reads it. -/
theorem out_block_eq (t : Fin cfg0.N) (X : Vec Ideal S5000x256 .f32) (G : S50000x256.Idx → EReal)
    (h : ∀ (p : Fin 5000) (q : Fin 256) (r : Fin 50000), r.val = t.val * 5000 + p.val → X (ix2 p q) = G (ix2 r q)) :
    (cfg0.win 4).cut (grid0.coords t) X = ((cfg0.win 4).blk t).view.read (Elt Ideal) G := by
  obtain ⟨-, -, -, -, -, -, -, -, e0, e1⟩ := block_index t
  have hN : cfg0.N = 10 := N_0
  funext j
  obtain ⟨p, q, rfl⟩ : ∃ (p : Fin 5000) (q : Fin 256), j = ix2 p q := ⟨j 0, j 1, eq_ix2 j⟩
  rw [View.read_apply]
  show X (ix2 p q) = G (((cfg0.win 4).blk t).view.emb (ix2 p q))
  refine (h p q ⟨t.val * 5000 + p.val, by have := t.isLt; have := p.isLt; omega⟩ rfl).trans
    (congrArg G (funext fun a => Fin.ext ?_))
  match a with
  | ⟨0, _⟩ => show t.val * 5000 + p.val = win0_4.index t (0 : Fin 2) * 5000 + 1 * p.val; rw [e0]; omega
  | ⟨1, _⟩ => show q.val = win0_4.index t (1 : Fin 2) * 256 + 1 * q.val; rw [e1]; omega

/-! ## The blocks of the arrays the region finds -/

/-- The feature block at point `t` is rows `5000·t …` of the feature array. -/
theorem feat_block (c : Dev nD) (t : Fin cfg0.N) (p : Fin 5000) (k : Fin 128) (r : Fin 50000) (hr : r.val = t.val * 5000 + p.val) :
    (iblk m c 0 t : Vec Ideal S5000x128 .f32) (ix2 p k) = (V m c main_arg0 : S50000x128.Idx → EReal) (ix2 r k) := by
  unfold iblk
  exact rows0_read (V m c main_arg0) t p k r hr

/-- The neighbour-sum block at point `t` is rows `5000·t …` of the neighbour-sum array. -/
theorem msg_block (c : Dev nD) (t : Fin cfg0.N) (p : Fin 5000) (k : Fin 128) (r : Fin 50000) (hr : r.val = t.val * 5000 + p.val) :
    (iblk m c 1 t : Vec Ideal S5000x128 .f32) (ix2 p k) = (V m c main_v9 : S50000x128.Idx → EReal) (ix2 r k) := by
  unfold iblk
  exact rows1_read (V m c main_v9) t p k r hr

/-- The count block at point `t` is rows `5000·t …` of the count column. -/
theorem count_block (c : Dev nD) (t : Fin cfg0.N) (p : Fin 5000) (r : Fin 50000) (hr : r.val = t.val * 5000 + p.val) :
    (iblk m c 2 t : Vec Ideal S5000x1 .f32) (ix2 p (0 : Fin 1)) = (V m c main_v14 : S50000x1.Idx → EReal) (ix2 r (0 : Fin 1)) := by
  unfold iblk
  exact col_read (V m c main_v14) t p r hr

/-- The weight block at every point is the whole weight array. -/
theorem weight_block (c : Dev nD) (t : Fin cfg0.N) (k : Fin 128) (q : Fin 256) :
    (iblk m c 3 t : Vec Ideal S128x256 .bf16) (ix2 k q) = (V m c main_v15 : S128x256.Idx → EReal) (ix2 k q) := by
  unfold iblk
  exact whole_read (V m c main_v15) t k q

end Cert.KernelIdeal.Tiles

end
-- ==== Proof.Spec.lean ====
/-
  The layer both programs compute, as one function of four arrays. For a graph on 50000 nodes with 128 input
  channels and 256 output channels: `feat` holds every node's features, `msg` the sum of the features of its
  in-neighbours, `deg` the number of in-neighbours, `W` the weight matrix. Node `r`'s mixed feature in channel
  `k` is the average of its own feature and the neighbour mean, where a node without in-neighbours divides by one:

      mix r k = (feat r k + msg r k / max (deg r) 1) · ½

  and output entry `(r, c)` is the positive part of the product of the mixed features with the weights:

      layer (r, c) = max (∑ k, mix r k · W k c) 0.

  The constants one, one half and zero are kept as the bit patterns both programs print; they are never evaluated.
-/
import Idealize.ShloMosaic.Lib.ValueIdx
import Idealize.ShloMosaic.PureOps.Ideal.Laws

noncomputable section

open scoped BigOperators

namespace Cert.MeanLayer

open Idealize.ShloMosaic Idealize.ShloMosaic.ValueIdx

/-- Node `r`'s feature in channel `k` averaged with the mean of its in-neighbours' features. -/
def mix (feat msg : (⟨2, ![50000, 128]⟩ : Shape).Idx → EReal) (deg : (⟨1, ![50000]⟩ : Shape).Idx → EReal)
    (r : Fin 50000) (k : Fin 128) : EReal :=
  (feat (ix2 r k) + Ideal.div (msg (ix2 r k)) (max (deg (ix1 r)) (Ideal.ofBits .f32 0x3F800000#32)))
    * Ideal.ofBits .f32 0x3F000000#32

/-- The layer's output: the mixed features times the weights, negative entries replaced by zero. -/
def layer (feat msg : (⟨2, ![50000, 128]⟩ : Shape).Idx → EReal) (deg : (⟨1, ![50000]⟩ : Shape).Idx → EReal)
    (W : (⟨2, ![128, 256]⟩ : Shape).Idx → EReal) : (⟨2, ![50000, 256]⟩ : Shape).Idx → EReal :=
  fun i => max (∑ k : Fin 128, mix feat msg deg ⟨(i 0).val, (i 0).isLt⟩ k * W (ix2 k ⟨(i 1).val, (i 1).isLt⟩))
    (Ideal.ofBits .f32 0x00000000#32)

/-- The layer at an entry given by its coordinates. -/
theorem layer_ix2 (feat msg : (⟨2, ![50000, 128]⟩ : Shape).Idx → EReal) (deg : (⟨1, ![50000]⟩ : Shape).Idx → EReal)
    (W : (⟨2, ![128, 256]⟩ : Shape).Idx → EReal) (r : Fin 50000) (c : Fin 256) :
    layer feat msg deg W (ix2 r c)
      = max (∑ k : Fin 128, mix feat msg deg r k * W (ix2 k c)) (Ideal.ofBits .f32 0x00000000#32) := rfl

end Cert.MeanLayer

end
-- ==== Proof.KernelArray.lean ====
/-
  From blocks to the whole output array. What grid point `t` writes back is block `t` of ONE function of the four
  arrays the region finds (the layer of Spec.lean, with the counts read from their column): the stored entry `(p, q)`
  of the block is the layer at `(5000·t + p, q)`, because the loaded blocks are rows `5000·t …` of the arrays. The ten
  blocks tile the 50000 rows (row `r` lies in block `r / 5000`), hence the output array ends holding that function.
-/
import proofs.«139834_j46402826666668_2_alg».proof.Proof.Gen.KernelIdeal.Value
import proofs.«139834_j46402826666668_2_alg».proof.Proof.KernelBlock
import proofs.«139834_j46402826666668_2_alg».proof.Proof.KernelTiles
import proofs.«139834_j46402826666668_2_alg».proof.Proof.Spec
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Cert.KernelIdeal.Block Cert.KernelIdeal.Tiles
open Cert.MeanLayer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One block's entry is the layer's entry

Stated over plain arrays and blocks: if the loaded blocks are rows `5000·b …` of the arrays, the stored entry
`(p, q)` of the block is the layer at `(5000·b + p, q)`. -/

/-- The layer over the arrays as the kernel holds them: the counts are a column. -/
def layerCol (feat msg : S50000x128.Idx → EReal) (dcol : S50000x1.Idx → EReal) (wb : S128x256.Idx → EReal) :
    S50000x256.Idx → EReal :=
  layer feat msg (fun j => dcol (ix2 (⟨(j 0).val, (j 0).isLt⟩ : Fin 50000) (0 : Fin 1))) wb

theorem block_entry (feat msg : S50000x128.Idx → EReal) (dcol : S50000x1.Idx → EReal) (wb : S128x256.Idx → EReal)
    (d : FVec Ideal S5000x1 .f32) (ms ft : FVec Ideal S5000x128 .f32) (w : FVec Ideal S128x256 .bf16) (b : Nat)
    (hft : ∀ (p : Fin 5000) (k : Fin 128) (r : Fin 50000), r.val = b * 5000 + p.val → ft (ix2 p k) = feat (ix2 r k))
    (hms : ∀ (p : Fin 5000) (k : Fin 128) (r : Fin 50000), r.val = b * 5000 + p.val → ms (ix2 p k) = msg (ix2 r k))
    (hd : ∀ (p : Fin 5000) (r : Fin 50000), r.val = b * 5000 + p.val → d (ix2 p (0 : Fin 1)) = dcol (ix2 r (0 : Fin 1)))
    (hw : ∀ (k : Fin 128) (q : Fin 256), w (ix2 k q) = wb (ix2 k q))
    (y : S5000x256.Idx) (i : S50000x256.Idx) (hi0 : (i 0).val = b * 5000 + (y 0).val) (hi1 : (i 1).val = (y 1).val) :
    k0_pay1 (F := Ideal) d ms ft w y = layerCol feat msg dcol wb i := by
  obtain ⟨p, q, rfl⟩ : ∃ (p : Fin 5000) (q : Fin 256), y = ix2 p q := ⟨y 0, y 1, eq_ix2 y⟩
  obtain ⟨r, c, rfl⟩ : ∃ (r : Fin 50000) (c : Fin 256), i = ix2 r c := ⟨i 0, i 1, eq_ix2 i⟩
  have hr : r.val = b * 5000 + p.val := hi0
  obtain rfl : c = q := Fin.ext hi1
  rw [stored_apply]
  unfold layerCol
  rw [layer_ix2]
  refine congrArg₂ max (Finset.sum_congr rfl fun k _ => ?_) rfl
  unfold mix
  rw [hft p k r hr, hms p k r hr, hd p r hr, hw k c]

/-! ## What a point writes back, the cover, the final array -/

/-- What the body leaves in the output's buffer is its stored value of the four blocks it loaded: one store through
    the whole buffer, of loads through the whole buffers. -/
theorem left_eq (x0 x1 : Vec Ideal S5000x128 .f32) (x2 : Vec Ideal S5000x1 .f32) (x3 : Vec Ideal S128x256 .bf16) :
    out0_4 x0 x1 x2 x3 = k0_pay1 x2 x1 x0 x3 := by
  unfold out0_4
  rw [View.canon_unit_zero zero_offsets]
  simp only [View.ld_unit_zero (S := S5000x128) zero_offsets, View.ld_unit_zero (S := S5000x1) zero_offsets,
    View.ld_unit_zero (S := S128x256) zero_offsets]

/-- The output array as one function of the arrays the region finds. -/
def found (c : Dev nD) : S50000x256.Idx → EReal :=
  layerCol (V m c main_arg0 : S50000x128.Idx → EReal) (V m c main_v9 : S50000x128.Idx → EReal)
    (V m c main_v14 : S50000x1.Idx → EReal) (V m c main_v15 : S128x256.Idx → EReal)

/-- Point `t` writes back block `t` of that function. -/
theorem flushed_eq (c : Dev nD) (t : Fin cfg0.N) :
    (dats m 0 c).flushed 4 t = ((cfg0.win 4).blk t).view.read (Elt Ideal) (found m c) := by
  rw [flushed4, left_eq]
  refine out_block_eq t _ (found m c) fun p q r hr => ?_
  unfold found
  exact block_entry _ _ _ _ (iblk m c 2 t) (iblk m c 1 t) (iblk m c 0 t) (iblk m c 3 t) t.val
    (fun p k r hr => feat_block m c t p k r hr) (fun p k r hr => msg_block m c t p k r hr)
    (fun p r hr => count_block m c t p r hr) (fun k q => weight_block m c t k q) (ix2 p q) (ix2 r q) hr rfl

/-- An index of the output array is in point `t`'s block iff each coordinate is in the block's range on its axis. -/
theorem mem_block (t : Fin cfg0.N) (i : S50000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v16).slice (win0_4.rect t)).set ↔ _
  rw [View.set_slice_whole, Rect.mem_set_unit]
  exact Iff.rfl

/-- Every output index lies in some point's block: row `r` in block `r / 5000`. -/
theorem covered (i : S50000x256.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 256 := (i 1).isLt
  obtain ⟨t, ht⟩ : ∃ t : Fin cfg0.N, t.val = (i 0).val / 5000 := ⟨⟨(i 0).val / 5000, by rw [hN]; omega⟩, rfl⟩
  refine ⟨t, flush0_4 t, ?_⟩
  rw [mem_block]
  obtain ⟨-, -, -, -, -, -, -, -, e0, e1⟩ := block_index t
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 256 ≤ (i 1).val ∧ (i 1).val < win0_4.index t (1 : Fin 2) * 256 + 256
    rw [e1]; omega

/-- So the output array ends holding that function of the arrays the region finds. -/
theorem final (c : Dev nD) : (dats m 0 c).arrAt 4 cfg0.N = found m c :=
  (dats m 0 c).arrAt_eq_of_cover 4 (found m c) (fun t _ => flushed_eq m c t) covered

end Cert.KernelIdeal.Whole

end
-- ==== Proof.KernelHost.lean ====
/-
  The arrays the kernel's region finds, read back to the program's arguments. Before the region the host computes,
  from the features and the edge lists: the neighbour sums (the source nodes' feature rows gathered edge by edge, a
  negative source index counted from the end, then added into the destination nodes' rows, starting from zero) and
  the in-neighbour counts (a one per edge added into the destination nodes' entries, starting from zero), which it
  lays out as a column; and it changes the weights' float format, which on the extended reals changes nothing. The
  gather and the two accumulating scatters are named here as they stand and never opened.
-/
import proofs.«139834_j46402826666668_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- For every node, the sum of the feature rows of its in-neighbours: edge `e` reads the row of its source node and
    adds it into the row of its destination node. -/
def neighbourSum (x0 : (⟨S50000x128, .f32⟩ : BufTy).Contents (Elt Ideal)) (x2 x3 : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 x3)
    (Host.gather gather_S50000x128_S800000x1_S800000x128_1_0_n_n_0_1_1128 x0
      (broadcastInDim S800000x1 ![0] Facts₀.bcast_S800000_S800000x1_0
        (select (cmpi .slt x2 (broadcastInDim S800000 ![] Facts₀.bcast_S_S800000 (constantI S_ 32 0#32)))
          (addi x2 (broadcastInDim S800000 ![] Facts₀.bcast_S_S800000 (constantI S_ 32 50000#32))) x2)))

/-- For every node, the number of edges that end in it: each edge adds a one into its destination node's entry. -/
def neighbourCount (x3 : (⟨S800000, .i32⟩ : BufTy).Contents (Elt Ideal)) : (⟨S50000, .f32⟩ : BufTy).Contents (Elt Ideal) :=
  Host.scatterAdd scatter_S50000_S800000x1_S800000_n_0_0_1
    (broadcastInDim S50000 ![] Facts₀.bcast_S_S50000 (constant (F := Ideal) S_ .f32 0x00000000#32))
    (broadcastInDim S800000x1 ![0] Facts₀.bcast_S800000_S800000x1_0 x3)
    (broadcastInDim S800000 ![] Facts₀.bcast_S_S800000 (constant (F := Ideal) S_ .f32 0x3F800000#32))

/-- The region finds the neighbour sums of the launch contents. -/
theorem found_sums (c : Dev nD) :
    (V m c main_v9 : S50000x128.Idx → EReal)
      = neighbourSum (m ((c : Thread nD τ).loc main_arg0)) (m ((c : Thread nD τ).loc main_arg2)) (m ((c : Thread nD τ).loc main_arg3)) := by
  unfold neighbourSum
  dsimp only [Gen.V, Gen.hostOps0]
  after_results

/-- The region finds the in-neighbour counts laid out as a column. -/
theorem found_counts (c : Dev nD) :
    (V m c main_v14 : S50000x1.Idx → EReal)
      = broadcastInDim S50000x1 ![0] Facts₀.bcast_S50000_S50000x1_0 (neighbourCount (m ((c : Thread nD τ).loc main_arg3))) := by
  unfold neighbourCount
  dsimp only [Gen.V, Gen.hostOps0]
  after_results

/-- The region finds the weights as launched: the change of float format is the identity on the extended reals. -/
theorem found_weights (c : Dev nD) :
    (V m c main_v15 : S128x256.Idx → EReal) = (m ((c : Thread nD τ).loc main_arg1) : S128x256.Idx → EReal) := by
  dsimp only [Gen.V, Gen.hostOps0]
  after_results
  rfl

/-- A vector laid out as a column and read back at its rows is the vector. -/
theorem column_rows (deg : S50000.Idx → EReal) :
    (fun j : S50000.Idx => broadcastInDim S50000x1 ![0] Facts₀.bcast_S50000_S50000x1_0 deg
      (ix2 (⟨(j 0).val, (j 0).isLt⟩ : Fin 50000) (0 : Fin 1))) = deg := by
  funext j
  refine broadcastInDim_apply _ Facts₀.bcast_S50000_S50000x1_0 deg _ j (fun a => ?_)
  match a with
  | ⟨0, _⟩ => show (j 0).val = if (50000 : Nat) = 1 then 0 else (j 0).val; rw [if_neg (by decide)]

end Cert.KernelIdeal.Entry

end
-- ==== Proof.KernelRun.lean ====
/-
  The kernel's run, read: its result array ends at the layer of Spec.lean applied to the launched features, the
  neighbour sums and in-neighbour counts the host computes from the launched features and edge lists, and the launched
  weights; the four arguments end as launched.
-/
import proofs.«139834_j46402826666668_2_alg».proof.Proof.KernelArray
import proofs.«139834_j46402826666668_2_alg».proof.Proof.KernelHost

noncomputable section

namespace Cert.KernelIdeal.Result

open Cert.KernelIdeal Cert.KernelIdeal.Gen Cert.KernelIdeal.Value Cert.KernelIdeal.Whole Cert.KernelIdeal.Entry
open Idealize.ShloMosaic Idealize.ShloMosaic.TcCoe Idealize.ShloMosaic.ValueIdx Idealize.SL.Sem
open Cert.MeanLayer

variable (m : (ℓ : Loc nD τ sig) → Buf (Elt Ideal) ℓ) (ρ : Dev nD → PrngReg)

/-- The layer over the arrays the region finds is the layer over the program's arguments. -/
theorem found_eq (c : Dev nD) :
    found m c = layer (m ((c : Thread nD τ).loc main_arg0) : S50000x128.Idx → EReal)
      (neighbourSum (m ((c : Thread nD τ).loc main_arg0)) (m ((c : Thread nD τ).loc main_arg2)) (m ((c : Thread nD τ).loc main_arg3)))
      (neighbourCount (m ((c : Thread nD τ).loc main_arg3)))
      (m ((c : Thread nD τ).loc main_arg1) : S128x256.Idx → EReal) := by
  unfold found layerCol
  rw [V_main_arg0 m c, found_sums m c, found_counts m c, found_weights m c, column_rows]

/-- Every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v16)
        = layer (m ((c : Thread nD τ).loc main_arg0) : S50000x128.Idx → EReal)
          (neighbourSum (m ((c : Thread nD τ).loc main_arg0)) (m ((c : Thread nD τ).loc main_arg2)) (m ((c : Thread nD τ).loc main_arg3)))
          (neighbourCount (m ((c : Thread nD τ).loc main_arg3)))
          (m ((c : Thread nD τ).loc main_arg1) : S128x256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (found_eq m c)), (h c).2⟩) (run_blocks m ρ)

end Cert.KernelIdeal.Result

end
-- ==== Proof.RefLayer.lean ====
/-
  The reference program's result is the layer of Spec.lean. Read one operation at a time at entry `(r, c)`: the final
  maximum with zero; the host product as the sum over the 128 channels; the product with one half; the sum of the
  node's own feature and the quotient; the quotient of the neighbour sum by the clamped in-neighbour count, which the
  two broadcasts read at node `r` whatever the channel. The neighbour sum and the in-neighbour count themselves (a
  gather followed by an accumulating scatter) are carried as they stand and never opened.
-/
import proofs.«139834_j46402826666668_2_alg».proof.Proof.Gen.ReferenceIdeal.Read
import proofs.«139834_j46402826666668_2_alg».proof.Proof.Spec

noncomputable section

open scoped BigOperators

namespace Cert.ReferenceIdeal.Layer

open Cert.ReferenceIdeal Cert.ReferenceIdeal.Gen Cert.ReferenceIdeal.Read Idealize.ShloMosaic Idealize.ShloMosaic.ValueIdx
open Cert.MeanLayer

/-- The reference's result, as a function of its four arguments, is the layer applied to the features, the neighbour
    sums, the in-neighbour counts and the weights. -/
theorem result_eq_layer (x0 : (⟨S50000x128, .f32⟩ : BufTy).Contents (Elt Ideal)) (x1 : (⟨S128x256, .f32⟩ : BufTy).Contents (Elt Ideal))
    (x2 x3 : (⟨S800000, .i32⟩ : BufTy).Contents (Elt Ideal)) :
    val_main_v23 (F := Ideal) x0 x1 x2 x3
      = layer x0 (val_main_v9 (F := Ideal) x0 x2 x3) (val_main_v13 (F := Ideal) x3) x1 := by
  funext i
  obtain ⟨r, c, rfl⟩ : ∃ (r : Fin 50000) (c : Fin 256), i = ix2 r c := ⟨i 0, i 1, eq_ix2 i⟩
  have hl : ∀ k : Fin 128, lidx_main_v22 (ix2 r c) k = ix2 r k := fun k =>
    funext fun a => Fin.ext (by match a with | ⟨0, _⟩ => rfl | ⟨1, _⟩ => rfl)
  have hr : ∀ k : Fin 128, ridx_main_v22 (ix2 r c) k = ix2 k c := fun k =>
    funext fun a => Fin.ext (by match a with | ⟨0, _⟩ => rfl | ⟨1, _⟩ => rfl)
  have hd : ∀ k : Fin 128, idx_main_v16 (idx_main_v17 (ix2 r k)) = ix1 r := fun k =>
    funext fun a => Fin.ext (by match a with | ⟨0, _⟩ => rfl)
  rw [layer_ix2, val_main_v23_apply, val_main_v22_apply, val_main_call0_v0_apply, val_main_call0_cst_apply]
  refine congrArg₂ max (Finset.sum_congr rfl fun k _ => ?_) rfl
  rw [hl k, hr k, val_main_v21_apply, val_main_v20_apply, val_main_cst_4_apply, val_main_v19_apply, val_main_v18_apply,
    val_main_v17_apply, val_main_v16_apply, val_main_v15_apply, val_main_v14_apply, val_main_cst_3_apply, hd k]
  rfl

end Cert.ReferenceIdeal.Layer

end
-- ==== Proof.lean ====
/-
  A graph layer on 50000 nodes: every node's features are averaged with the mean of its in-neighbours' features (a
  node without in-neighbours divides by one), multiplied by a 128 × 256 weight matrix, and negative entries are
  replaced by zero. Both programs first compute, on the host and by the same operations, the sum of each node's
  in-neighbours' feature rows and the number of its in-neighbours. The kernel then does the rest block by block, 5000
  nodes at a grid point, with the clamp, the quotient, the average, a change of float format and a matrix-unit product
  inside its body; the reference does it with whole-array operations.

  On the extended reals the two results are one function of the arguments (Spec.lean's `layer`), entry by entry: a
  change of float format is the identity, the matrix unit's product into a zero accumulator and the host's product
  are the same sum over the 128 channels, the kernel's quotient and the host's are the same quotient, and the
  clamped count read through a column is the clamped count. No law of arithmetic beyond that is used, so the
  finiteness of the inputs is never needed. The neighbour sums and counts are the same terms on both sides and are
  never opened.

  The three frames are the generated ones (the reference's is its run with the result dropped); the idealization
  rewrote nothing, so there is nothing to preserve.
-/
import proofs.«139834_j46402826666668_2_alg».proof.Defs
import proofs.«139834_j46402826666668_2_alg».proof.Proof.Gen.Kernel
import proofs.«139834_j46402826666668_2_alg».proof.Proof.Gen.Kernel.Skeleton
import proofs.«139834_j46402826666668_2_alg».proof.Proof.Gen.Kernel.Launch
import proofs.«139834_j46402826666668_2_alg».proof.Proof.Gen.Kernel.Points
import proofs.«139834_j46402826666668_2_alg».proof.Proof.Gen.Kernel.Frame
import proofs.«139834_j46402826666668_2_alg».proof.Proof.Gen.KernelIdeal
import proofs.«139834_j46402826666668_2_alg».proof.Proof.Gen.KernelIdeal.Skeleton
import proofs.«139834_j46402826666668_2_alg».proof.Proof.Gen.KernelIdeal.Launch
import proofs.«139834_j46402826666668_2_alg».proof.Proof.Gen.KernelIdeal.Points
import proofs.«139834_j46402826666668_2_alg».proof.Proof.Gen.KernelIdeal.Frame
import proofs.«139834_j46402826666668_2_alg».proof.Proof.Gen.ReferenceIdeal
import proofs.«139834_j46402826666668_2_alg».proof.Proof.Gen.Pre_finite_inputs
import proofs.«139834_j46402826666668_2_alg».proof.Proof.Gen.KernelIdeal.Value
import proofs.«139834_j46402826666668_2_alg».proof.Proof.Gen.ReferenceIdeal.Run
import proofs.«139834_j46402826666668_2_alg».proof.Proof.Gen.ReferenceIdeal.Read
import proofs.«139834_j46402826666668_2_alg».proof.Proof.KernelRun
import proofs.«139834_j46402826666668_2_alg».proof.Proof.RefLayer
import Idealize.ShloMosaic.Adequacy
import Idealize.ShloMosaic.Init

noncomputable section

namespace Cert.Proof

open Idealize.ShloMosaic Idealize.SL.Sem

/-- The neighbour sums are the same term in both programs: the same gather and accumulating scatter of the same
    arrays. -/
theorem sums_agree (x0 : (⟨Cert.KernelIdeal.S50000x128, .f32⟩ : BufTy).Contents (Elt Ideal))
    (x2 x3 : (⟨Cert.KernelIdeal.S800000, .i32⟩ : BufTy).Contents (Elt Ideal)) :
    Cert.ReferenceIdeal.Read.val_main_v9 (F := Ideal) x0 x2 x3 = Cert.KernelIdeal.Entry.neighbourSum x0 x2 x3 := rfl

/-- The in-neighbour counts are the same term in both programs. -/
theorem counts_agree (x3 : (⟨Cert.KernelIdeal.S800000, .i32⟩ : BufTy).Contents (Elt Ideal)) :
    Cert.ReferenceIdeal.Read.val_main_v13 (F := Ideal) x3 = Cert.KernelIdeal.Entry.neighbourCount x3 := rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result arrays at the layer of the
    arguments: the kernel's by its run read block by block, the reference's by its run read entry by entry. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v23_eq (F := Ideal) _ _ _ _).trans ?_
  refine (Cert.ReferenceIdeal.Layer.result_eq_layer _ _ _ _).trans ?_
  rw [sums_agree, counts_agree]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
